-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S4096x4096 : Shape := ⟨2, ![4096, 4096]⟩
abbrev S4096 : Shape := ⟨1, ![4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S256x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S256x4096 : Shape := ⟨2, ![256, 4096]⟩
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S256x4096, .bf16⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S256x4096, .f32⟩
  | .local _ .vmem, ⟨0, _⟩ => ⟨S256x4096, .bf16⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_1_0_0_n_n_wf : DotDims.WF S256x1024 S1024x1024 S256x1024 [1] [1] [0] [0] [] []
  hrank0 : 0 < grid0.rank
  k0_mult1_dvd : ∀ i : grid0.Coords, 128 ∣ (k0_mult1 i).toNat
  k0_off1_inb : ∀ i : grid0.Coords, ∀ a, (k0_off1 i) a + S256x1024.size a ≤ S256x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .bf16 = 32 ∨ (Rect.block (s := S256x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x4096.size a
  hwx0_7 : ∀ i : grid0.Coords, EltTy.bits .f32 = 32 ∨ (Rect.block (s := S256x4096) S256x1024.size (cc0_transform_7 i) (hinb0_7 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_v0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S256x4096 : Shape := ⟨2, ![256, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S256x4096, .f32⟩
  | .hbm, ⟨20, _⟩ => ⟨S1x4096, .f32⟩
  | .hbm, ⟨21, _⟩ => ⟨S256x4096, .f32⟩
  | .hbm, ⟨22, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  dot_S256x4096_S4096x4096_S256x4096_1_1_0_0_n_n_wf : DotDims.WF S256x4096 S4096x4096 S256x4096 [1] [1] [0] [0] [] []

variable [Facts₀]

def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

class Facts : Prop extends Facts₀ where

variable [Facts]
-- ==== Proof.Spec.lean ====
/-
  A variational linear layer as one function of its seven argument arrays, over the extended reals.

  Every weight and every bias entry is sampled by reparameterisation: mean + noise · exp(½ · log-variance).
  Entry (r, q) of the result is the dot product of row r of the input with row q of the sampled weight matrix,
  plus the sampled bias at q.  The contraction runs over 4096 positions; cut into four consecutive blocks of 1024
  it is the sum of the four blocks' partial dot products, by associativity and commutativity of the extended
  reals' addition alone — no entry needs to be finite.
-/
import Idealize.ShloMosaic.PureOps.Ideal
import Idealize.ShloMosaic.Lib.ValueIdx

noncomputable section

namespace Cert.VarLinear

open Idealize.ShloMosaic Idealize.ShloMosaic.ValueIdx

/-- The shapes of the input, of a weight-sized array and of a bias-sized array. -/
abbrev SX : Shape := ⟨2, ![256, 4096]⟩
abbrev SW : Shape := ⟨2, ![4096, 4096]⟩
abbrev SB : Shape := ⟨1, ![4096]⟩

/-- The scale of the log-variance inside the exponential: the word of one half, never evaluated. -/
abbrev half : EReal := Ideal.ofBits .f32 0x3F000000#32

/-- One reparameterised sample: mean + noise · exp(half · log-variance). -/
def sample (mu lv eps : EReal) : EReal := mu + eps * Ideal.exp (half * lv)

/-- The sampled weight at (q, i). -/
def weight (wmu wlv weps : SW.Idx → EReal) (q i : Fin 4096) : EReal :=
  sample (wmu (ix2 q i)) (wlv (ix2 q i)) (weps (ix2 q i))

/-- The sampled bias at q. -/
def bias (bmu blv beps : SB.Idx → EReal) (q : Fin 4096) : EReal :=
  sample (bmu (ix1 q)) (blv (ix1 q)) (beps (ix1 q))

/-- The layer: entry (r, q) is ∑ᵢ x[r, i] · W[q, i] + b[q]. -/
def layer (x : SX.Idx → EReal) (wmu wlv : SW.Idx → EReal) (bmu blv : SB.Idx → EReal) (weps : SW.Idx → EReal)
    (beps : SB.Idx → EReal) : SX.Idx → EReal :=
  fun j => (∑ i : Fin 4096, x (ix2 (j 0) i) * weight wmu wlv weps (j 1) i) + bias bmu blv beps (j 1)

/-- The layer at explicit coordinates. -/
theorem layer_apply (x : SX.Idx → EReal) (wmu wlv : SW.Idx → EReal) (bmu blv : SB.Idx → EReal) (weps : SW.Idx → EReal)
    (beps : SB.Idx → EReal) (r : Fin 256) (q : Fin 4096) :
    layer x wmu wlv bmu blv weps beps (ix2 r q)
      = (∑ i : Fin 4096, x (ix2 r i) * weight wmu wlv weps q i) + bias bmu blv beps q := rfl

/-! ## Four blocks of 1024 -/

/-- Position `i` of block `k` (taken modulo four) among 4096 positions. -/
def blk (k : ℕ) (i : Fin 1024) : Fin 4096 :=
  ⟨1024 * (k % 4) + i.val, by have := i.isLt; have := Nat.mod_lt k (show 0 < 4 by decide); omega⟩

theorem blk_val (k : ℕ) (i : Fin 1024) : (blk k i).val = 1024 * (k % 4) + i.val := rfl

/-- Only the block number modulo four matters. -/
theorem blk_congr {k k' : ℕ} (h : k % 4 = k' % 4) (i : Fin 1024) : blk k i = blk k' i :=
  Fin.ext (by rw [blk_val, blk_val, h])

/-- A sum over 4096 positions is the sum over the four blocks of the sums inside each block. -/
theorem sum_blocks {M : Type*} [AddCommMonoid M] (f : Fin 4096 → M) :
    ∑ s ∈ Finset.range 4, ∑ i : Fin 1024, f (blk s i) = ∑ i : Fin 4096, f i := by
  rw [Finset.sum_range (fun s => ∑ i : Fin 1024, f (blk s i))]
  rw [← Equiv.sum_comp (finProdFinEquiv (m := 4) (n := 1024)) f, Fintype.sum_prod_type]
  refine Finset.sum_congr rfl fun s _ => Finset.sum_congr rfl fun i _ => congrArg f (Fin.ext ?_)
  rw [blk_val, Nat.mod_eq_of_lt s.isLt]
  show 1024 * s.val + i.val = i.val + 1024 * s.val
  omega

/-- Block `k`'s share of the dot product at (r, q). -/
def partialDot (x : SX.Idx → EReal) (wmu wlv weps : SW.Idx → EReal) (r : Fin 256) (q : Fin 4096) (k : ℕ) : EReal :=
  ∑ i : Fin 1024, x (ix2 r (blk k i)) * weight wmu wlv weps q (blk k i)

theorem partialDot_congr (x : SX.Idx → EReal) (wmu wlv weps : SW.Idx → EReal) (r : Fin 256) (q : Fin 4096)
    {k k' : ℕ} (h : k % 4 = k' % 4) : partialDot x wmu wlv weps r q k = partialDot x wmu wlv weps r q k' := by
  unfold partialDot
  exact Finset.sum_congr rfl fun i _ => by rw [blk_congr h i]

/-- The four blocks' shares, added from zero in any grouping, are the whole dot product. -/
theorem zero_add_partials (x : SX.Idx → EReal) (wmu wlv weps : SW.Idx → EReal) (r : Fin 256) (q : Fin 4096) :
    (0 : EReal) + ∑ s ∈ Finset.range 4, partialDot x wmu wlv weps r q s
      = ∑ i : Fin 4096, x (ix2 r i) * weight wmu wlv weps q i := by
  rw [zero_add]
  exact sum_blocks fun i => x (ix2 r i) * weight wmu wlv weps q i

end Cert.VarLinear

end
-- ==== Proof.RefLayer.lean ====
/-
  The reference program's result is the layer function of its seven arguments.

  Read one host operation at a time, entry (r, q) of the reference's result is the dot product over all 4096
  positions i of x[r, i] with mu[q, i] + eps[q, i] · exp(½ · logvar[q, i]), plus the same expression of the three
  bias arrays at q broadcast along the rows: the layer, term for term.
-/
import proofs.«169073_j2104533975291_2_alg».proof.Proof.Gen.ReferenceIdeal.Read
import proofs.«169073_j2104533975291_2_alg».proof.Proof.Spec

noncomputable section

namespace Cert.ReferenceIdeal.RefLayer

open Cert.ReferenceIdeal Cert.ReferenceIdeal.Read Idealize.ShloMosaic Idealize.ShloMosaic.ValueIdx Cert.VarLinear

/-- At entry (r, q) the left operand of the contraction is read at (r, i), -/
theorem lidx_eq (r : Fin 256) (q i : Fin 4096) : lidx_main_v10 (ix2 r q) i = ix2 r i :=
  funext fun a => Fin.ext (by match a with | ⟨0, _⟩ => rfl | ⟨1, _⟩ => rfl)

/-- the right operand at (q, i), -/
theorem ridx_eq (r : Fin 256) (q i : Fin 4096) : ridx_main_v10 (ix2 r q) i = ix2 q i :=
  funext fun a => Fin.ext (by match a with | ⟨0, _⟩ => rfl | ⟨1, _⟩ => rfl)

/-- and the bias, broadcast first to one row and then to all rows, at q. -/
theorem bidx_eq (r : Fin 256) (q : Fin 4096) : idx_main_v11 (idx_main_v12 (ix2 r q)) = ix1 q :=
  funext fun a => Fin.ext (by match a with | ⟨0, _⟩ => rfl)

/-- The reference's weight stage at (q, i) is the sampled weight. -/
theorem weight_eq (x1 x2 x5 : FVec Ideal S4096x4096 .f32) (q i : Fin 4096) :
    val_main_v4 (F := Ideal) x1 x2 x5 (ix2 q i) = weight x1 x2 x5 q i := by
  rw [val_main_v4_apply, val_main_v3_apply, val_main_v2_apply, val_main_v1_apply, val_main_v0_apply,
    val_main_cst_apply]
  rfl

/-- The reference's bias stage at q is the sampled bias. -/
theorem bias_eq (x3 x4 x6 : FVec Ideal S4096 .f32) (q : Fin 4096) :
    val_main_v9 (F := Ideal) x3 x4 x6 (ix1 q) = bias x3 x4 x6 q := by
  rw [val_main_v9_apply, val_main_v8_apply, val_main_v7_apply, val_main_v6_apply, val_main_v5_apply,
    val_main_cst_0_apply]
  rfl

/-- The reference's result stage is the layer. -/
theorem result_eq (x0 : FVec Ideal S256x4096 .f32) (x1 x2 : FVec Ideal S4096x4096 .f32) (x3 x4 : FVec Ideal S4096 .f32)
    (x5 : FVec Ideal S4096x4096 .f32) (x6 : FVec Ideal S4096 .f32) :
    val_main_v13 (F := Ideal) x0 x1 x2 x3 x4 x5 x6 = layer x0 x1 x2 x3 x4 x5 x6 := by
  funext j
  obtain ⟨r, q, rfl⟩ : ∃ (r : Fin 256) (q : Fin 4096), j = ix2 r q := ⟨j 0, j 1, eq_ix2 j⟩
  rw [val_main_v13_apply, val_main_v10_apply, val_main_v12_apply, val_main_v11_apply, bidx_eq, bias_eq, layer_apply]
  exact congrArg (· + bias x3 x4 x6 q)
    (Finset.sum_congr rfl fun i _ => by rw [lidx_eq, ridx_eq, weight_eq])

end Cert.ReferenceIdeal.RefLayer

end
-- ==== Proof.KernelPieces.lean ====
/-
  What each control case of the kernel body leaves behind, as values.

  The body keeps a [256, 1024] accumulator between grid points.  At the first step of a row of the grid it stores the
  zero block and then, reading it back, stores zero plus the step's product; at a later step it stores the accumulator it
  found plus the step's product; at the last step it moreover stores, into the output block, the new accumulator plus the
  bias row broadcast over the 256 rows.  The step's product multiplies the [256, 1024] slice of the resident input that
  starts at column 1024·k by the reparameterised weight tile, contracting the tile's second axis.
-/
import proofs.«169073_j2104533975291_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL.Sem

variable {F : FTy → Type} [FloatOps F]

theorem hz : (![0, 0] : Fin 2 → Nat) = fun _ => 0 := funext fun a => by fin_cases a <;> rfl

/-- The slice of the resident input the body loads at grid point `i`: all 256 rows, the 1024 columns from 1024·k. -/
abbrev xslice (i : grid0.Coords) (x0 : Vec F S256x4096 .bf16) : Vec F S256x1024 .bf16 :=
  View.ld x0 (Rect.unit (s := S256x4096) (k0_off1 i) S256x1024.size (k0_off1_inb i))

/-- A MIDDLE step leaves in the accumulator what it found plus the step's product. -/
theorem sout_B (c : Dev nD) (i : grid0.Coords) (arg2 : Memref sig .tc .vmem S256x4096 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : ¬cond0_1 i)
    (x0 : Vec F S256x4096 .bf16) (x1 : Vec F S1024x1024 .f32) (x2 : Vec F S1024x1024 .f32) (x3 : Vec F S1024x1024 .f32) (x4 : Vec F S1x1024 .f32) (x5 : Vec F S1x1024 .f32) (x6 : Vec F S1x1024 .f32) (xs0 : Vec F S256x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay2 (xslice i x0) x1 x3 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  rw [View.canon_unit_zero hz]
  simp only [View.readAt_eq_ld, harg2.read_unread, harg3.read_unread, harg4.read_unread, harg5.read_unread,
    harg10.read_unread, View.ld_unit_zero (S := S1024x1024) hz, View.ld_unit_zero (S := S256x1024) hz]

/-- The LAST step leaves the same in the accumulator, -/
theorem sout_C (c : Dev nD) (i : grid0.Coords) (arg2 : Memref sig .tc .vmem S256x4096 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i)
    (x0 : Vec F S256x4096 .bf16) (x1 : Vec F S1024x1024 .f32) (x2 : Vec F S1024x1024 .f32) (x3 : Vec F S1024x1024 .f32) (x4 : Vec F S1x1024 .f32) (x5 : Vec F S1x1024 .f32) (x6 : Vec F S1x1024 .f32) (xs0 : Vec F S256x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay2 (xslice i x0) x1 x3 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread,
    harg10.read_unread, View.ld_unit_zero (S := S1024x1024) hz, View.ld_unit_zero (S := S256x1024) hz]
  rfl

/-- and in the output block that new accumulator plus the bias row. -/
theorem out_C (c : Dev nD) (i : grid0.Coords) (arg2 : Memref sig .tc .vmem S256x4096 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : ¬cond0_0 i) (hc1 : cond0_1 i)
    (x0 : Vec F S256x4096 .bf16) (x1 : Vec F S1024x1024 .f32) (x2 : Vec F S1024x1024 .f32) (x3 : Vec F S1024x1024 .f32) (x4 : Vec F S1x1024 .f32) (x5 : Vec F S1x1024 .f32) (x6 : Vec F S1x1024 .f32) (xs0 : Vec F S256x1024 .f32) :
    out0_C_7 c i arg2 harg2 arg3 harg3 arg4 harg4 arg5 harg5 arg6 harg6 arg7 harg7 arg8 harg8 arg9 harg9 arg10 harg10 hc0 hc1 x0 x1 x2 x3 x4 x5 x6 xs0
      = k0_pay3 x4 x6 x5 (k0_pay2 (xslice i x0) x1 x3 x2 xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S256x1024) _ hz]
  simp only [View.readAt_eq_ld, harg2.read_unread, harg3.read_unread, harg4.read_unread, harg5.read_unread,
    harg6.read_unread, harg7.read_unread, harg8.read_unread, harg10.read_unread,
    View.ld_unit_zero (S := S1024x1024) hz, View.ld_unit_zero (S := S256x1024) hz, View.ld_unit_zero (S := S1x1024) hz]
  rfl

/-- The FIRST step leaves in the accumulator the zero block plus the step's product. -/
theorem sout_A (c : Dev nD) (i : grid0.Coords) (arg2 : Memref sig .tc .vmem S256x4096 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S256x1024 .f32) (harg9 : arg9.IsWhole) (arg10 : Memref sig .tc .vmem S256x1024 .f32) (harg10 : arg10.IsWhole) (hc0 : cond0_0 i) (hc1 : ¬cond0_1 i)
    (x0 : Vec F S256x4096 .bf16) (x1 : Vec F S1024x1024 .f32) (x2 : Vec F S1024x1024 .f32) (x3 : Vec F S1024x1024 .f32) (x4 : Vec F S1x1024 .f32) (x5 : Vec F S1x1024 .f32) (x6 : Vec F S1x1024 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 (xslice i x0) x1 x3 x2 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S256x1024) hz, View.readCov_unit_zero (S := S256x1024) _ hz]
  simp only [View.readAt_eq_ld, harg2.read_unread, harg3.read_unread, harg4.read_unread, harg5.read_unread,
    View.ld_unit_zero (S := S1024x1024) hz]
  rfl

end Cert.KernelIdeal.Pieces

end
-- ==== Proof.PayloadValue.lean ====
/-
  The body's three stored values read at an entry, over the extended reals.

  The zero block is 0 everywhere.  The accumulator's new contents at (r, j) are what it held there plus the dot product,
  over the 1024 positions of the tile's second axis, of row r of the loaded input slice with row j of the
  reparameterised weight tile (a change of float format is the identity here, and a product into the zero block is the
  bare sum).  The output block at (r, j) is the accumulator there plus the reparameterised bias row at j, the same for
  every row r.
-/
import proofs.«169073_j2104533975291_2_alg».proof.Proof.Gen.KernelIdeal.Skeleton
import proofs.«169073_j2104533975291_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayVal

open Cert.KernelIdeal Cert.KernelIdeal.Gen Idealize.ShloMosaic Idealize.ShloMosaic.ValueIdx Cert.VarLinear

/-- The zero block at any entry. -/
theorem pay1_apply (y : S256x1024.Idx) : k0_pay1 (F := Ideal) y = 0 := by
  unfold k0_pay1
  rw [shapeCast_self]
  exact Ideal.ofBits_zero_f32

/-! ## The tile product's operand indices -/

theorem lhs_0 (j : S256x1024.Idx) (q : dot_S256x1024_S1024x1024_S256x1024_1_1_0_0_n_n.contr.Idx) : (dot_S256x1024_S1024x1024_S256x1024_1_1_0_0_n_n.lhsIdx j q 0).val = (j 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl

theorem lhs_1 (j : S256x1024.Idx) (q : dot_S256x1024_S1024x1024_S256x1024_1_1_0_0_n_n.contr.Idx) : (dot_S256x1024_S1024x1024_S256x1024_1_1_0_0_n_n.lhsIdx j q 1).val = (q ⟨0, by decide⟩).val :=
  dot_S256x1024_S1024x1024_S256x1024_1_1_0_0_n_n.lhsIdx_val_of_single rfl j q

theorem rhs_0 (j : S256x1024.Idx) (q : dot_S256x1024_S1024x1024_S256x1024_1_1_0_0_n_n.contr.Idx) : (dot_S256x1024_S1024x1024_S256x1024_1_1_0_0_n_n.rhsIdx j q 0).val = (j 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl

theorem rhs_1 (j : S256x1024.Idx) (q : dot_S256x1024_S1024x1024_S256x1024_1_1_0_0_n_n.contr.Idx) : (dot_S256x1024_S1024x1024_S256x1024_1_1_0_0_n_n.rhsIdx j q 1).val = (q ⟨0, by decide⟩).val :=
  dot_S256x1024_S1024x1024_S256x1024_1_1_0_0_n_n.rhsIdx_val_of_single rfl j q

/-- The product of a [256, 1024] block with a [1024, 1024] tile, contracting the second axis of both, into the zero
    block: at (r, j) the sum over i of left (r, i) times right (j, i). -/
theorem tile_product_apply (l : FVec Ideal S256x1024 .bf16) (w : FVec Ideal S1024x1024 .bf16) (r : Fin 256) (j : Fin 1024) :
    FloatOps.matmul dot_S256x1024_S1024x1024_S256x1024_1_1_0_0_n_n none l w (constant S256x1024 .f32 0x00000000#32) (ix2 r j)
      = ∑ i : Fin 1024, l (ix2 r i) * w (ix2 j i) := by
  refine (Ideal.matmul_constant_zero_apply dot_S256x1024_S1024x1024_S256x1024_1_1_0_0_n_n none l w (ix2 r j)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r j) ((contrEquiv1 dot_S256x1024_S1024x1024_S256x1024_1_1_0_0_n_n 1024 rfl rfl).symm k) = ix2 r k :=
    funext fun a => Fin.ext (by
      match a with
      | ⟨0, _⟩ => exact lhs_0 _ _
      | ⟨1, _⟩ => exact (lhs_1 _ _).trans hk)
  have er : dot_S256x1024_S1024x1024_S256x1024_1_1_0_0_n_n.rhsIdx (ix2 r j) ((contrEquiv1 dot_S256x1024_S1024x1024_S256x1024_1_1_0_0_n_n 1024 rfl rfl).symm k) = ix2 j k :=
    funext fun a => Fin.ext (by
      match a with
      | ⟨0, _⟩ => exact rhs_0 _ _
      | ⟨1, _⟩ => exact (rhs_1 _ _).trans hk)
  rw [el, er]

/-- The accumulator's new contents at (r, j). -/
theorem pay2_apply (v6 : FVec Ideal S256x1024 .bf16) (v8 v9 v10 : FVec Ideal S1024x1024 .f32) (v17 : FVec Ideal S256x1024 .f32)
    (r : Fin 256) (j : Fin 1024) :
    k0_pay2 (F := Ideal) v6 v8 v9 v10 v17 (ix2 r j)
      = v17 (ix2 r j) + ∑ i : Fin 1024, v6 (ix2 r i) * sample (v8 (ix2 j i)) (v10 (ix2 j i)) (v9 (ix2 j i)) := by
  unfold k0_pay2
  rw [shapeCast_self, shapeCast_self]
  refine congrArg (v17 (ix2 r j) + ·) ?_
  exact tile_product_apply v6 _ r j

/-- The output block at (r, j). -/
theorem pay3_apply (v26 v28 v30 : FVec Ideal S1x1024 .f32) (v37 : FVec Ideal S256x1024 .f32) (r : Fin 256) (j : Fin 1024) :
    k0_pay3 (F := Ideal) v26 v28 v30 v37 (ix2 r j)
      = v37 (ix2 r j) + sample (v26 (ix2 (0 : Fin 1) j)) (v30 (ix2 (0 : Fin 1) j)) (v28 (ix2 (0 : Fin 1) j)) := by
  unfold k0_pay3
  rw [shapeCast_self, shapeCast_self, shapeCast_self]
  refine congrArg (v37 (ix2 r j) + ·) ?_
  exact broadcastTo_1b_ab_apply _ broadcasts_S1x1024_S256x1024 r j

end Cert.KernelIdeal.PayVal

end
-- ==== Proof.KernelBlocks.lean ====
/-
  What each window's block holds at a grid point, read at an entry of the arrays the program was launched with.

  The grid has 4 × 4 points, the second coordinate running fastest: point `t` is output tile t / 4, contraction step
  t % 4.  The input is resident whole (its one block is the array, a change of float format of the launch array, which is
  the identity over the extended reals) and the body reads its columns from 1024·(t % 4).  The three weight-sized arrays
  are cut into 1024 × 1024 tiles at (t / 4, t % 4); the three bias arrays, recast as one row, into [1, 1024] blocks at
  t / 4; the output into [256, 1024] blocks at t / 4.
-/
import proofs.«169073_j2104533975291_2_alg».proof.Proof.KernelPieces
import proofs.«169073_j2104533975291_2_alg».proof.Proof.Spec
import Idealize.ShloMosaic.Lib.StableHlo.Run
import Idealize.ShloMosaic.Lib.ValueLayout

set_option maxRecDepth 16384

noncomputable section

namespace Cert.KernelIdeal.Blocks

open Cert.KernelIdeal Cert.KernelIdeal.Gen Cert.KernelIdeal.Pieces Idealize.ShloMosaic Idealize.ShloMosaic.TcCoe
open Idealize.ShloMosaic.ValueIdx Idealize.ShloMosaic.StableHlo Idealize.SL.Sem Cert.VarLinear

variable (m : (ℓ : Loc nD τ sig) → Buf (Elt Ideal) ℓ)

/-- The printed index maps and the body's column offset, in closed form at every grid point. -/
structure IdxFacts (t : Fin cfg0.N) : Prop where
  w0 : win0_0.index t (0 : Fin 2) = 0 ∧ win0_0.index t (1 : Fin 2) = 0
  w1 : win0_1.index t (0 : Fin 2) = t.val / 4 ∧ win0_1.index t (1 : Fin 2) = t.val % 4
  w2 : win0_2.index t (0 : Fin 2) = t.val / 4 ∧ win0_2.index t (1 : Fin 2) = t.val % 4
  w3 : win0_3.index t (0 : Fin 2) = t.val / 4 ∧ win0_3.index t (1 : Fin 2) = t.val % 4
  w4 : win0_4.index t (0 : Fin 2) = 0 ∧ win0_4.index t (1 : Fin 2) = t.val / 4
  w5 : win0_5.index t (0 : Fin 2) = 0 ∧ win0_5.index t (1 : Fin 2) = t.val / 4
  w6 : win0_6.index t (0 : Fin 2) = 0 ∧ win0_6.index t (1 : Fin 2) = t.val / 4
  w7 : win0_7.index t (0 : Fin 2) = 0 ∧ win0_7.index t (1 : Fin 2) = t.val / 4
  off : k0_off1 (grid0.coords t) (0 : Fin 2) = 0 ∧ k0_off1 (grid0.coords t) (1 : Fin 2) = 1024 * (t.val % 4)

theorem idx_facts_raw : ∀ t : Fin cfg0.N,
    (win0_0.index t (0 : Fin 2) = 0 ∧ win0_0.index t (1 : Fin 2) = 0)
    ∧ (win0_1.index t (0 : Fin 2) = t.val / 4 ∧ win0_1.index t (1 : Fin 2) = t.val % 4)
    ∧ (win0_2.index t (0 : Fin 2) = t.val / 4 ∧ win0_2.index t (1 : Fin 2) = t.val % 4)
    ∧ (win0_3.index t (0 : Fin 2) = t.val / 4 ∧ win0_3.index t (1 : Fin 2) = t.val % 4)
    ∧ (win0_4.index t (0 : Fin 2) = 0 ∧ win0_4.index t (1 : Fin 2) = t.val / 4)
    ∧ (win0_5.index t (0 : Fin 2) = 0 ∧ win0_5.index t (1 : Fin 2) = t.val / 4)
    ∧ (win0_6.index t (0 : Fin 2) = 0 ∧ win0_6.index t (1 : Fin 2) = t.val / 4)
    ∧ (win0_7.index t (0 : Fin 2) = 0 ∧ win0_7.index t (1 : Fin 2) = t.val / 4)
    ∧ (k0_off1 (grid0.coords t) (0 : Fin 2) = 0 ∧ k0_off1 (grid0.coords t) (1 : Fin 2) = 1024 * (t.val % 4)) :=
  (by decide +kernel : ∀ t : Fin grid0.N, _)

theorem idx_facts (t : Fin cfg0.N) : IdxFacts t :=
  let ⟨a0, a1, a2, a3, a4, a5, a6, a7, a8⟩ := idx_facts_raw t
  ⟨a0, a1, a2, a3, a4, a5, a6, a7, a8⟩

/-! ## The resident input -/

/-- The region finds the input converted to the matrix unit's format: over the extended reals, the launch array. -/
theorem V_x (c : Dev nD) : (V m c main_v0 : S256x4096.Idx → EReal) = m ((c : Thread nD τ).loc main_arg0) := by
  dsimp only [V, hostOps0]; after_results; rfl

/-- The slice the body loads at point `t`, at (r, i), is the input at (r, 1024·(t % 4) + i). -/
theorem x_read (c : Dev nD) (t : Fin cfg0.N) (r : Fin 256) (i : Fin 1024) :
    xslice (grid0.coords t) (iblk m c 0 t) (ix2 r i) = m ((c : Thread nD τ).loc main_arg0) (ix2 r (blk (t.val % 4) i)) := by
  have f := idx_facts t
  show (iblk m c 0 t) ((Rect.unit (s := S256x4096) (k0_off1 (grid0.coords t)) S256x1024.size (k0_off1_inb (grid0.coords t))).idx (ix2 r i)) = _
  unfold iblk
  rw [View.read_apply]
  show V m c main_v0 _ = _
  rw [V_x]
  refine congrArg (m ((c : Thread nD τ).loc main_arg0)) (funext fun a => Fin.ext ?_)
  match a with
  | ⟨0, _⟩ =>
    show win0_0.index t (0 : Fin 2) * 256 + 1 * (k0_off1 (grid0.coords t) (0 : Fin 2) + 1 * r.val) = r.val
    rw [f.w0.1, f.off.1]; omega
  | ⟨1, _⟩ =>
    show win0_0.index t (1 : Fin 2) * 4096 + 1 * (k0_off1 (grid0.coords t) (1 : Fin 2) + 1 * i.val) = 1024 * (t.val % 4 % 4) + i.val
    rw [f.w0.2, f.off.2]; omega

/-! ## The weight-sized arrays -/

/-- The mean tile at point `t` is rows 1024·(t / 4) … and columns 1024·(t % 4) … of its array. -/
theorem wmu_read (c : Dev nD) (t : Fin cfg0.N) (j i : Fin 1024) :
    (iblk m c 1 t : FVec Ideal S1024x1024 .f32) (ix2 j i)
      = m ((c : Thread nD τ).loc main_arg1) (ix2 (blk (t.val / 4) j) (blk (t.val % 4) i)) := by
  have f := idx_facts t
  have hN : t.val < 16 := lt_of_lt_of_eq t.isLt (show cfg0.N = 16 from N_0)
  unfold iblk
  rw [View.read_apply]
  show V m c main_arg1 _ = _
  rw [V_main_arg1]
  refine congrArg (m ((c : Thread nD τ).loc main_arg1)) (funext fun a => Fin.ext ?_)
  match a with
  | ⟨0, _⟩ =>
    show win0_1.index t (0 : Fin 2) * 1024 + 1 * j.val = 1024 * (t.val / 4 % 4) + j.val
    rw [f.w1.1]; omega
  | ⟨1, _⟩ =>
    show win0_1.index t (1 : Fin 2) * 1024 + 1 * i.val = 1024 * (t.val % 4 % 4) + i.val
    rw [f.w1.2]; omega

/-- The log-variance tile at point `t` is rows 1024·(t / 4) … and columns 1024·(t % 4) … of its array. -/
theorem wlv_read (c : Dev nD) (t : Fin cfg0.N) (j i : Fin 1024) :
    (iblk m c 2 t : FVec Ideal S1024x1024 .f32) (ix2 j i)
      = m ((c : Thread nD τ).loc main_arg2) (ix2 (blk (t.val / 4) j) (blk (t.val % 4) i)) := by
  have f := idx_facts t
  have hN : t.val < 16 := lt_of_lt_of_eq t.isLt (show cfg0.N = 16 from N_0)
  unfold iblk
  rw [View.read_apply]
  show V m c main_arg2 _ = _
  rw [V_main_arg2]
  refine congrArg (m ((c : Thread nD τ).loc main_arg2)) (funext fun a => Fin.ext ?_)
  match a with
  | ⟨0, _⟩ =>
    show win0_2.index t (0 : Fin 2) * 1024 + 1 * j.val = 1024 * (t.val / 4 % 4) + j.val
    rw [f.w2.1]; omega
  | ⟨1, _⟩ =>
    show win0_2.index t (1 : Fin 2) * 1024 + 1 * i.val = 1024 * (t.val % 4 % 4) + i.val
    rw [f.w2.2]; omega

/-- The noise tile at point `t` is rows 1024·(t / 4) … and columns 1024·(t % 4) … of its array. -/
theorem weps_read (c : Dev nD) (t : Fin cfg0.N) (j i : Fin 1024) :
    (iblk m c 3 t : FVec Ideal S1024x1024 .f32) (ix2 j i)
      = m ((c : Thread nD τ).loc main_arg5) (ix2 (blk (t.val / 4) j) (blk (t.val % 4) i)) := by
  have f := idx_facts t
  have hN : t.val < 16 := lt_of_lt_of_eq t.isLt (show cfg0.N = 16 from N_0)
  unfold iblk
  rw [View.read_apply]
  show V m c main_arg5 _ = _
  rw [V_main_arg5]
  refine congrArg (m ((c : Thread nD τ).loc main_arg5)) (funext fun a => Fin.ext ?_)
  match a with
  | ⟨0, _⟩ =>
    show win0_3.index t (0 : Fin 2) * 1024 + 1 * j.val = 1024 * (t.val / 4 % 4) + j.val
    rw [f.w3.1]; omega
  | ⟨1, _⟩ =>
    show win0_3.index t (1 : Fin 2) * 1024 + 1 * i.val = 1024 * (t.val % 4 % 4) + i.val
    rw [f.w3.2]; omega

/-! ## The bias-sized arrays -/

/-- The mean row at point `t`, a [1, 1024] block of the array recast as one row, is entries 1024·(t / 4) … of it. -/
theorem V_bmu (c : Dev nD) :
    (V m c main_v1 : S1x4096.Idx → EReal) = shapeCast S1x4096 (m ((c : Thread nD τ).loc main_arg3)) shapeCasts_S4096_S1x4096 := by
  dsimp only [V, hostOps0]; after_results; rfl

theorem bmu_read (c : Dev nD) (t : Fin cfg0.N) (j : Fin 1024) :
    (iblk m c 4 t : FVec Ideal S1x1024 .f32) (ix2 (0 : Fin 1) j) = m ((c : Thread nD τ).loc main_arg3) (ix1 (blk (t.val / 4) j)) := by
  have f := idx_facts t
  have hN : t.val < 16 := lt_of_lt_of_eq t.isLt (show cfg0.N = 16 from N_0)
  unfold iblk
  rw [View.read_apply]
  show V m c main_v1 _ = _
  rw [V_bmu]
  have e : (((cfg0.win 4).blk t).view.emb (ix2 (0 : Fin 1) j) : S1x4096.Idx) = ix2 (0 : Fin 1) (blk (t.val / 4) j) :=
    funext fun a => Fin.ext (by
      match a with
      | ⟨0, _⟩ =>
        show win0_4.index t (0 : Fin 2) * 1 + 1 * 0 = 0
        rw [f.w4.1]
      | ⟨1, _⟩ =>
        show win0_4.index t (1 : Fin 2) * 1024 + 1 * j.val = 1024 * (t.val / 4 % 4) + j.val
        rw [f.w4.2]; omega)
  exact (congrArg (shapeCast S1x4096 (m ((c : Thread nD τ).loc main_arg3)) shapeCasts_S4096_S1x4096) e).trans
    (shapeCast_a_1a_apply (m ((c : Thread nD τ).loc main_arg3)) shapeCasts_S4096_S1x4096 (0 : Fin 1) (blk (t.val / 4) j))

/-- The log-variance row at point `t`, a [1, 1024] block of the array recast as one row, is entries 1024·(t / 4) … of it. -/
theorem V_blv (c : Dev nD) :
    (V m c main_v2 : S1x4096.Idx → EReal) = shapeCast S1x4096 (m ((c : Thread nD τ).loc main_arg4)) shapeCasts_S4096_S1x4096 := by
  dsimp only [V, hostOps0]; after_results; rfl

theorem blv_read (c : Dev nD) (t : Fin cfg0.N) (j : Fin 1024) :
    (iblk m c 5 t : FVec Ideal S1x1024 .f32) (ix2 (0 : Fin 1) j) = m ((c : Thread nD τ).loc main_arg4) (ix1 (blk (t.val / 4) j)) := by
  have f := idx_facts t
  have hN : t.val < 16 := lt_of_lt_of_eq t.isLt (show cfg0.N = 16 from N_0)
  unfold iblk
  rw [View.read_apply]
  show V m c main_v2 _ = _
  rw [V_blv]
  have e : (((cfg0.win 5).blk t).view.emb (ix2 (0 : Fin 1) j) : S1x4096.Idx) = ix2 (0 : Fin 1) (blk (t.val / 4) j) :=
    funext fun a => Fin.ext (by
      match a with
      | ⟨0, _⟩ =>
        show win0_5.index t (0 : Fin 2) * 1 + 1 * 0 = 0
        rw [f.w5.1]
      | ⟨1, _⟩ =>
        show win0_5.index t (1 : Fin 2) * 1024 + 1 * j.val = 1024 * (t.val / 4 % 4) + j.val
        rw [f.w5.2]; omega)
  exact (congrArg (shapeCast S1x4096 (m ((c : Thread nD τ).loc main_arg4)) shapeCasts_S4096_S1x4096) e).trans
    (shapeCast_a_1a_apply (m ((c : Thread nD τ).loc main_arg4)) shapeCasts_S4096_S1x4096 (0 : Fin 1) (blk (t.val / 4) j))

/-- The noise row at point `t`, a [1, 1024] block of the array recast as one row, is entries 1024·(t / 4) … of it. -/
theorem V_beps (c : Dev nD) :
    (V m c main_v3 : S1x4096.Idx → EReal) = shapeCast S1x4096 (m ((c : Thread nD τ).loc main_arg6)) shapeCasts_S4096_S1x4096 := by
  dsimp only [V, hostOps0]; after_results; rfl

theorem beps_read (c : Dev nD) (t : Fin cfg0.N) (j : Fin 1024) :
    (iblk m c 6 t : FVec Ideal S1x1024 .f32) (ix2 (0 : Fin 1) j) = m ((c : Thread nD τ).loc main_arg6) (ix1 (blk (t.val / 4) j)) := by
  have f := idx_facts t
  have hN : t.val < 16 := lt_of_lt_of_eq t.isLt (show cfg0.N = 16 from N_0)
  unfold iblk
  rw [View.read_apply]
  show V m c main_v3 _ = _
  rw [V_beps]
  have e : (((cfg0.win 6).blk t).view.emb (ix2 (0 : Fin 1) j) : S1x4096.Idx) = ix2 (0 : Fin 1) (blk (t.val / 4) j) :=
    funext fun a => Fin.ext (by
      match a with
      | ⟨0, _⟩ =>
        show win0_6.index t (0 : Fin 2) * 1 + 1 * 0 = 0
        rw [f.w6.1]
      | ⟨1, _⟩ =>
        show win0_6.index t (1 : Fin 2) * 1024 + 1 * j.val = 1024 * (t.val / 4 % 4) + j.val
        rw [f.w6.2]; omega)
  exact (congrArg (shapeCast S1x4096 (m ((c : Thread nD τ).loc main_arg6)) shapeCasts_S4096_S1x4096) e).trans
    (shapeCast_a_1a_apply (m ((c : Thread nD τ).loc main_arg6)) shapeCasts_S4096_S1x4096 (0 : Fin 1) (blk (t.val / 4) j))

end Cert.KernelIdeal.Blocks

end
-- ==== Proof.KernelValue.lean ====
/-
  The kernel's result array is the layer of its launch arrays.

  Along one row of the grid (output tile o = t / 4, steps t % 4 = 0, 1, 2, 3) the accumulator is zeroed and then
  takes, step by step, the dot product of the input's columns 1024·k … with the same columns of the sampled weights'
  rows 1024·o …: after the fourth step it holds, at (r, j), zero plus the four blocks' shares of the full dot product at
  (r, 1024·o + j), that is the dot product over all 4096 positions.  The last step writes accumulator plus sampled bias
  to the output block, which is the block at column tile o of the result array; the four flushing points' blocks tile
  the array.
-/
import proofs.«169073_j2104533975291_2_alg».proof.Proof.Gen.KernelIdeal.Value
import proofs.«169073_j2104533975291_2_alg».proof.Proof.KernelPieces
import proofs.«169073_j2104533975291_2_alg».proof.Proof.PayloadValue
import proofs.«169073_j2104533975291_2_alg».proof.Proof.KernelBlocks
import proofs.«169073_j2104533975291_2_alg».proof.Proof.Spec

set_option maxRecDepth 16384

noncomputable section

namespace Cert.KernelIdeal.LayerValue

open Cert.KernelIdeal Cert.KernelIdeal.Gen Cert.KernelIdeal.Value Cert.KernelIdeal.Pieces Cert.KernelIdeal.PayVal
open Cert.KernelIdeal.Blocks Idealize.ShloMosaic Idealize.ShloMosaic.TcCoe Idealize.ShloMosaic.ValueIdx
open Idealize.SL.Sem Cert.VarLinear
open Idealize.ShloMosaic.Pipeline (Dat)

variable (m : (ℓ : Loc nD τ sig) → Buf (Elt Ideal) ℓ) (ρ : Dev nD → PrngReg)

/-- The seven launch arrays on core `c`. -/
abbrev X (c : Dev nD) : SX.Idx → EReal := m ((c : Thread nD τ).loc main_arg0)
abbrev WMU (c : Dev nD) : SW.Idx → EReal := m ((c : Thread nD τ).loc main_arg1)
abbrev WLV (c : Dev nD) : SW.Idx → EReal := m ((c : Thread nD τ).loc main_arg2)
abbrev BMU (c : Dev nD) : SB.Idx → EReal := m ((c : Thread nD τ).loc main_arg3)
abbrev BLV (c : Dev nD) : SB.Idx → EReal := m ((c : Thread nD τ).loc main_arg4)
abbrev WEPS (c : Dev nD) : SW.Idx → EReal := m ((c : Thread nD τ).loc main_arg5)
abbrev BEPS (c : Dev nD) : SB.Idx → EReal := m ((c : Thread nD τ).loc main_arg6)

/-! ## One step of the accumulator -/

/-- What point `n` leaves in the accumulator over contents `acc`: `acc` plus the point's tile product. -/
def step (c : Dev nD) (n : ℕ) (hb : n < cfg0.N) (acc : Vec Ideal S256x1024 .f32) : Vec Ideal S256x1024 .f32 :=
  k0_pay2 (xslice (grid0.coords (⟨n, hb⟩ : Fin cfg0.N)) (iblk m c 0 (⟨n, hb⟩ : Fin cfg0.N))) (iblk m c 1 (⟨n, hb⟩ : Fin cfg0.N)) (iblk m c 3 (⟨n, hb⟩ : Fin cfg0.N)) (iblk m c 2 (⟨n, hb⟩ : Fin cfg0.N)) acc

/-- Point `n`'s addend at block entry `y`: block n % 4's share of the dot product at (y₀, 1024·(n / 4) + y₁). -/
def addend (c : Dev nD) (n : ℕ) (y : S256x1024.Idx) : EReal :=
  partialDot (X m c) (WMU m c) (WLV m c) (WEPS m c) (y 0) (blk (n / 4) (y 1)) n

theorem addend_apply (c : Dev nD) (n : ℕ) (r : Fin 256) (j : Fin 1024) :
    addend m c n (ix2 r j) = partialDot (X m c) (WMU m c) (WLV m c) (WEPS m c) r (blk (n / 4) j) n := rfl

/-- A step adds its addend, entry by entry. -/
theorem step_apply (c : Dev nD) (n : ℕ) (hb : n < cfg0.N) (acc : Vec Ideal S256x1024 .f32) (y : S256x1024.Idx) :
    step m c n hb acc y = acc y + addend m c n y := by
  obtain ⟨r, j, rfl⟩ : ∃ (r : Fin 256) (j : Fin 1024), y = ix2 r j := ⟨y 0, y 1, eq_ix2 y⟩
  unfold step
  refine (pay2_apply (xslice (grid0.coords (⟨n, hb⟩ : Fin cfg0.N)) (iblk m c 0 (⟨n, hb⟩ : Fin cfg0.N))) (iblk m c 1 (⟨n, hb⟩ : Fin cfg0.N)) (iblk m c 3 (⟨n, hb⟩ : Fin cfg0.N)) (iblk m c 2 (⟨n, hb⟩ : Fin cfg0.N)) acc r j).trans ?_
  refine congrArg (acc (ix2 r j) + ·) ?_
  rw [addend_apply]
  unfold partialDot
  refine Finset.sum_congr rfl fun i _ => ?_
  rw [x_read m c (⟨n, hb⟩ : Fin cfg0.N) r i, wmu_read m c (⟨n, hb⟩ : Fin cfg0.N) j i, wlv_read m c (⟨n, hb⟩ : Fin cfg0.N) j i, weps_read m c (⟨n, hb⟩ : Fin cfg0.N) j i]
  have hb4 : blk (n % 4) i = blk n i := blk_congr (Nat.mod_mod _ _) i
  show X m c (ix2 r (blk (n % 4) i)) * sample (WMU m c (ix2 (blk (n / 4) j) (blk (n % 4) i)))
      (WLV m c (ix2 (blk (n / 4) j) (blk (n % 4) i))) (WEPS m c (ix2 (blk (n / 4) j) (blk (n % 4) i))) = _
  rw [hb4]
  rfl

/-- At the first step of a row of the grid the frame's accumulator term is a step over the zero block, -/
theorem scAt_first (c : Dev nD) (n : ℕ) (hb : n < cfg0.N) (h0 : n % 4 = 0) (acc : Vec Ideal S256x1024 .f32) :
    scAt0_0 m c n hb acc = step m c n hb (k0_pay1 (F := Ideal)) := by
  have h1 : ¬n % 4 = 3 := by omega
  unfold scAt0_0
  rw [dif_pos h0, dif_neg h1]
  exact sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

/-- and at every later step a step over what it found. -/
theorem scAt_later (c : Dev nD) (n : ℕ) (hb : n < cfg0.N) (h0 : ¬n % 4 = 0) (acc : Vec Ideal S256x1024 .f32) :
    scAt0_0 m c n hb acc = step m c n hb acc := by
  unfold scAt0_0
  rw [dif_neg h0]
  by_cases h1 : n % 4 = 3
  · rw [dif_pos h1]
    exact sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
  · rw [dif_neg h1]
    exact sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-! ## The accumulator after the last step of a row -/

/-- After the fourth step it holds zero plus the four steps' addends. -/
theorem acc_last (c : Dev nD) (t : Fin cfg0.N) (h3 : t.val % 4 = 3) (y : S256x1024.Idx) :
    (outsAt0 m c t.val t.isLt).2 y = 0 + ∑ s ∈ Finset.range 4, addend m c (4 * (t.val / 4) + s) y := by
  have hN : t.val < 16 := lt_of_lt_of_eq t.isLt (show cfg0.N = 16 from N_0)
  rw [soutsAt0_0_eq m c t]
  have ha : ∀ (h : 4 * (t.val / 4) < cfg0.N) (i : S256x1024.Idx),
      scAt0_0 m c (4 * (t.val / 4)) h (VS0_0.read (Elt Ideal) VS0_0.junk) i = (fun _ => (0 : EReal)) i + addend m c (4 * (t.val / 4)) i := by
    intro h i
    rw [scAt_first m c _ h (by omega), step_apply, pay1_apply]
  have hg : ∀ (n : ℕ) (h : n < cfg0.N) (acc : S256x1024.Idx → EReal) (i : S256x1024.Idx),
      4 * (t.val / 4) < n → n ≤ 4 * (t.val / 4) + 3 → scAt0_0 m c n h acc i = acc i + addend m c n i := by
    intro n h acc i h1 h2
    rw [scAt_later m c n h (by omega), step_apply]
  have e : ∀ (j : ℕ) (hj : 4 * (t.val / 4) + j < cfg0.N), j = 3 →
      Pipeline.accAt (fun n h => scAt0_0 m c n h (VS0_0.read (Elt Ideal) VS0_0.junk)) (scAt0_0 m c) (4 * (t.val / 4)) j hj y
        = 0 + ∑ s ∈ Finset.range 4, addend m c (4 * (t.val / 4) + s) y := by
    intro j hj ej
    subst ej
    exact Pipeline.accAt_add_apply (fun n h => scAt0_0 m c n h (VS0_0.read (Elt Ideal) VS0_0.junk)) (scAt0_0 m c)
      (fun _ => (0 : EReal)) (addend m c) (4 * (t.val / 4)) 3 ha hg 3 (le_refl 3) hj y
  exact e _ _ h3

/-- The four addends of a row are the four blocks' shares of one dot product. -/
theorem addends_eq (c : Dev nD) (o : ℕ) (r : Fin 256) (j : Fin 1024) :
    ∑ s ∈ Finset.range 4, addend m c (4 * o + s) (ix2 r j)
      = ∑ s ∈ Finset.range 4, partialDot (X m c) (WMU m c) (WLV m c) (WEPS m c) r (blk o j) s :=
  Finset.sum_congr rfl fun s hs => by
    have hs4 : s < 4 := Finset.mem_range.mp hs
    rw [addend_apply, show (4 * o + s) / 4 = o by omega]
    exact partialDot_congr _ _ _ _ r _ (by omega)

/-! ## The output block of a row's last point -/

/-- At the last step the output block holds the accumulator just left plus the bias row. -/
theorem out_of_acc (c : Dev nD) (t : Fin cfg0.N) (h0 : ¬t.val % 4 = 0) (h3 : t.val % 4 = 3) :
    (outsAt0 m c t.val t.isLt).1
      = k0_pay3 (iblk m c 4 t) (iblk m c 6 t) (iblk m c 5 t) ((outsAt0 m c t.val t.isLt).2) := by
  rw [outsAt0_C m c t h0 h3]
  dsimp only
  exact (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2).trans
    (congrArg (k0_pay3 (iblk m c 4 t) (iblk m c 6 t) (iblk m c 5 t))
      (sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h3) (iblk m c 0 t) (iblk m c 1 t) (iblk m c 2 t) (iblk m c 3 t) (iblk m c 4 t) (iblk m c 5 t) (iblk m c 6 t)
        (outsAt0 m c (t.val - 1) (Nat.lt_of_le_of_lt (Nat.sub_le _ _) t.isLt)).2).symm)

/-- So at (r, j) it holds the layer at (r, 1024·(t / 4) + j). -/
theorem out_last (c : Dev nD) (t : Fin cfg0.N) (h3 : t.val % 4 = 3) (r : Fin 256) (j : Fin 1024) :
    (outsAt0 m c t.val t.isLt).1 (ix2 r j) = layer (X m c) (WMU m c) (WLV m c) (BMU m c) (BLV m c) (WEPS m c) (BEPS m c) (ix2 r (blk (t.val / 4) j)) := by
  have h0 : ¬t.val % 4 = 0 := by omega
  rw [out_of_acc m c t h0 h3]
  refine (pay3_apply (iblk m c 4 t) (iblk m c 6 t) (iblk m c 5 t) ((outsAt0 m c t.val t.isLt).2) r j).trans ?_
  rw [acc_last m c t h3 (ix2 r j), bmu_read m c t j, blv_read m c t j, beps_read m c t j, addends_eq, zero_add_partials,
    layer_apply]
  rfl

end Cert.KernelIdeal.LayerValue

end
-- ==== Proof.KernelRun.lean ====
/-
  From the last points' output blocks to the whole result array, and the kernel's run read as the layer.

  Only the last step of each row of the grid writes its output block back, and that block is columns 1024·o … of the
  result array: the four written blocks tile the array, so after the run the array is the layer of the launch arrays
  everywhere.
-/
import proofs.«169073_j2104533975291_2_alg».proof.Proof.KernelValue

set_option maxRecDepth 16384

noncomputable section

namespace Cert.KernelIdeal.LayerRun

open Cert.KernelIdeal Cert.KernelIdeal.Gen Cert.KernelIdeal.Value Cert.KernelIdeal.Blocks Cert.KernelIdeal.LayerValue
open Idealize.ShloMosaic Idealize.ShloMosaic.TcCoe Idealize.ShloMosaic.ValueIdx Idealize.SL.Sem Cert.VarLinear
open Idealize.ShloMosaic.Pipeline (Dat)

variable (m : (ℓ : Loc nD τ sig) → Buf (Elt Ideal) ℓ) (ρ : Dev nD → PrngReg)

/-- The layer of core `c`'s launch arrays, as contents of the result array. -/
abbrev result (c : Dev nD) : Buf (Elt Ideal) ((c : Thread nD τ).loc main_v4) :=
  layer (X m c) (WMU m c) (WLV m c) (BMU m c) (BLV m c) (WEPS m c) (BEPS m c)

/-- What a flushing point writes back is its block of the layer. -/
theorem flushed_eq (c : Dev nD) (t : Fin cfg0.N) (hf : (cfg0.win 7).flush t = true) :
    (dats m 0 c).flushed 7 t = ((cfg0.win 7).blk t).view.read (Elt Ideal) (result m c) := by
  have h3 : t.val % 4 = 3 := (flush0_7 t).mp hf
  have f := idx_facts t
  have hN : t.val < 16 := lt_of_lt_of_eq t.isLt (show cfg0.N = 16 from N_0)
  rw [flushed7]
  funext y
  have hy0 : (y 0).val < 256 := (y 0).isLt
  have hy1 : (y 1).val < 1024 := (y 1).isLt
  have ey : (cfg0.win 7).xinj (grid0.coords t) y = ix2 (⟨(y 0).val, hy0⟩ : Fin 256) (⟨(y 1).val, hy1⟩ : Fin 1024) :=
    funext fun a => Fin.ext (by match a with | ⟨0, _⟩ => rfl | ⟨1, _⟩ => rfl)
  show (outsAt0 m c t.val t.isLt).1 ((cfg0.win 7).xinj (grid0.coords t) y) = result m c (((cfg0.win 7).blk t).view.emb y)
  rw [ey, out_last m c t h3]
  refine congrArg (layer (X m c) (WMU m c) (WLV m c) (BMU m c) (BLV m c) (WEPS m c) (BEPS m c)) (funext fun a => Fin.ext ?_)
  match a with
  | ⟨0, _⟩ =>
    show (y 0).val = win0_7.index t (0 : Fin 2) * 256 + 1 * (y 0).val
    rw [f.w7.1]; omega
  | ⟨1, _⟩ =>
    show 1024 * (t.val / 4 % 4) + (y 1).val = win0_7.index t (1 : Fin 2) * 1024 + 1 * (y 1).val
    rw [f.w7.2]; omega

/-- An index of the array is in point `t`'s block iff each coordinate is in the block's range on its axis. -/
theorem mem_blk (t : Fin cfg0.N) (i : S256x4096.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v4).slice (win0_7.rect t)).set ↔ _
  rw [View.set_slice_whole, Rect.mem_set_unit]
  exact Iff.rfl

/-- Every entry (r, q) of the array lies in the block written by the last point of row q / 1024 of the grid. -/
theorem cover (i : S256x4096.Idx) :
    ∃ t : Fin cfg0.N, (cfg0.win 7).flush t = true ∧ i ∈ ((cfg0.win 7).blk t).view.set := by
  have h0 : (i 0).val < 256 := (i 0).isLt
  have h1 : (i 1).val < 4096 := (i 1).isLt
  have hN : cfg0.N = 16 := N_0
  have hb : 4 * ((i 1).val / 1024) + 3 < cfg0.N := by rw [hN]; omega
  have f := idx_facts (⟨4 * ((i 1).val / 1024) + 3, hb⟩ : Fin cfg0.N)
  refine ⟨⟨4 * ((i 1).val / 1024) + 3, hb⟩, (flush0_7 _).mpr (by show (4 * ((i 1).val / 1024) + 3) % 4 = 3; omega), ?_⟩
  rw [mem_blk]
  intro a
  match a with
  | ⟨0, _⟩ =>
    show win0_7.index ⟨4 * ((i 1).val / 1024) + 3, hb⟩ (0 : Fin 2) * 256 ≤ (i 0).val
      ∧ (i 0).val < win0_7.index ⟨4 * ((i 1).val / 1024) + 3, hb⟩ (0 : Fin 2) * 256 + 256
    rw [f.w7.1]; omega
  | ⟨1, _⟩ =>
    show win0_7.index ⟨4 * ((i 1).val / 1024) + 3, hb⟩ (1 : Fin 2) * 1024 ≤ (i 1).val
      ∧ (i 1).val < win0_7.index ⟨4 * ((i 1).val / 1024) + 3, hb⟩ (1 : Fin 2) * 1024 + 1024
    rw [f.w7.2]
    show (4 * ((i 1).val / 1024) + 3) / 4 * 1024 ≤ (i 1).val ∧ (i 1).val < (4 * ((i 1).val / 1024) + 3) / 4 * 1024 + 1024
    omega

/-- The result array after the run is the layer. -/
theorem final (c : Dev nD) : (dats m 0 c).arrAt 7 cfg0.N = result m c :=
  (dats m 0 c).arrAt_eq_of_cover 7 (result m c) (flushed_eq m c) cover

/-- The kernel's run: the result array at the layer of the launch arrays, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.LayerRun

end
-- ==== Proof.lean ====
/-
  A variational linear layer on the TensorCore against its jnp reference, over the extended reals.

  Both programs compute, at entry (r, q), the dot product over the 4096 input features i of x[r, i] with the sampled
  weight mu[q, i] + eps[q, i] · exp(½ · logvar[q, i]), plus the sampled bias at q.  The reference forms the whole
  sampled weight matrix and contracts once.  The kernel walks a 4 × 4 grid: for each 1024-wide tile of output features
  it adds, in four steps, the products of the input's 1024-column slices with the matching weight tiles into an
  accumulator kept between steps (rounding to the matrix unit's format is the identity here), and at the fourth step
  writes accumulator plus bias.  The two agree because a sum over 4096 positions is the sum of its four blocks' sums
  added from zero — associativity and commutativity of addition only, so the precondition is never opened.

  The three frames are the generated ones (the reference's is its generated run with the result dropped); the ideal pass
  rewrote nothing, so the kernel's idealization is its own text; the equivalence sets the kernel's run, read as the layer
  of its launch arrays, beside the reference's run, read as the same layer.
-/
import proofs.«169073_j2104533975291_2_alg».proof.Defs
import proofs.«169073_j2104533975291_2_alg».proof.Proof.Gen.Kernel
import proofs.«169073_j2104533975291_2_alg».proof.Proof.Gen.Kernel.Frame
import proofs.«169073_j2104533975291_2_alg».proof.Proof.Gen.KernelIdeal
import proofs.«169073_j2104533975291_2_alg».proof.Proof.Gen.KernelIdeal.Frame
import proofs.«169073_j2104533975291_2_alg».proof.Proof.Gen.ReferenceIdeal
import proofs.«169073_j2104533975291_2_alg».proof.Proof.Gen.Pre_finite_inputs
import proofs.«169073_j2104533975291_2_alg».proof.Proof.Gen.KernelIdeal.Value
import proofs.«169073_j2104533975291_2_alg».proof.Proof.Gen.ReferenceIdeal.Run
import proofs.«169073_j2104533975291_2_alg».proof.Proof.Gen.ReferenceIdeal.Read
import proofs.«169073_j2104533975291_2_alg».proof.Proof.RefLayer
import proofs.«169073_j2104533975291_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the seven arguments, the kernel's result array and the reference's both end at the
    layer of those arguments. -/
theorem algebraic : Cert.algebraic_KernelIdeal_ReferenceIdeal := by
  intro m ρ m' ρ' _ hagree
  refine ⟨fun c => Cert.KernelIdeal.LayerRun.result m c, Cert.KernelIdeal.LayerRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefLayer.result_eq, (hagree c).1, (hagree c).2.1,
    (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
